-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x80x8x8 : Shape := ⟨4, ![16384, 80, 8, 8]⟩
abbrev S5120x1858 : Shape := ⟨2, ![5120, 1858]⟩
abbrev S_ : Shape := ⟨0, ![]⟩

class Facts : Prop where
  bcast_S_S16384x80x8x8 : S_.BroadcastsInDim S16384x80x8x8 (![] : Fin 0 → Fin S16384x80x8x8.rank)
  reducesTo_S16384x80x8x8_S_d0_1_2_3 : S16384x80x8x8.ReducesTo [0, 1, 2, 3] S_
  h_S_ : 0 < S_.numel
  bcast_S_S5120x1858 : S_.BroadcastsInDim S5120x1858 (![] : Fin 0 → Fin S5120x1858.rank)
  reducesTo_S5120x1858_S_d0_1 : S5120x1858.ReducesTo [0, 1] S_

variable [Facts]

def fn {F : FTy → Type} [FloatOps F] (main_arg0 : FVec F S16384x80x8x8 .f32) (main_arg1 : FVec F S5120x1858 .f32) : IVec S_ 1 :=
  let main_v0 : FVec F S16384x80x8x8 .f32 := Host.absf main_arg0
  let main_cst : FVec F S_ .f32 := constant S_ .f32 0x7F800000#32
  let main_v1 : FVec F S16384x80x8x8 .f32 := broadcastInDim S16384x80x8x8 ![] bcast_S_S16384x80x8x8 main_cst
  let main_v2 : IVec S16384x80x8x8 1 := cmpf .olt main_v0 main_v1
  let main_c : IVec S_ 1 := constantI S_ 1 1#1
  let main_v3 : IVec S_ 1 := (fun x v => Host.reduce IntOp.andi x v reducesTo_S16384x80x8x8_S_d0_1_2_3 h_S_) main_v2 main_c
  let main_v4 : FVec F S5120x1858 .f32 := Host.absf main_arg1
  let main_cst_0 : FVec F S_ .f32 := constant S_ .f32 0x7F800000#32
  let main_v5 : FVec F S5120x1858 .f32 := broadcastInDim S5120x1858 ![] bcast_S_S5120x1858 main_cst_0
  let main_v6 : IVec S5120x1858 1 := cmpf .olt main_v4 main_v5
  let main_c_1 : IVec S_ 1 := constantI S_ 1 1#1
  let main_v7 : IVec S_ 1 := (fun x v => Host.reduce IntOp.andi x v reducesTo_S5120x1858_S_d0_1 h_S_) main_v6 main_c_1
  let main_v8 : IVec S_ 1 := andi main_v3 main_v7
  main_v8
-- ==== Kernel.lean ====
abbrev S16384x80x8x8 : Shape := ⟨4, ![16384, 80, 8, 8]⟩
abbrev S5120x1858 : Shape := ⟨2, ![5120, 1858]⟩
abbrev S16384x5120 : Shape := ⟨2, ![16384, 5120]⟩
abbrev S_ : Shape := ⟨0, ![]⟩
abbrev S5120x1920 : Shape := ⟨2, ![5120, 1920]⟩
abbrev S16384x1920 : Shape := ⟨2, ![16384, 1920]⟩
abbrev S256x5120 : Shape := ⟨2, ![256, 5120]⟩
abbrev S256x1920 : Shape := ⟨2, ![256, 1920]⟩
abbrev S16384x1858 : Shape := ⟨2, ![16384, 1858]⟩

abbrev nBuf : Space → Nat
  | .hbm => 9
  | .vmem => 5
  | .smem => 0
  | _ => 0

abbrev bufTy : (tb : Table) → Fin (tcTables nBuf tb) → BufTy
  | .hbm, ⟨0, _⟩ => ⟨S16384x80x8x8, .f32⟩
  | .hbm, ⟨1, _⟩ => ⟨S5120x1858, .f32⟩
  | .hbm, ⟨2, _⟩ => ⟨S16384x5120, .f32⟩
  | .hbm, ⟨3, _⟩ => ⟨S_, .i32⟩
  | .hbm, ⟨4, _⟩ => ⟨S_, .f32⟩
  | .hbm, ⟨5, _⟩ => ⟨S5120x1920, .f32⟩
  | .hbm, ⟨6, _⟩ => ⟨S5120x1920, .bf16⟩
  | .hbm, ⟨7, _⟩ => ⟨S16384x1920, .f32⟩
  | .hbm, ⟨8, _⟩ => ⟨S16384x1858, .f32⟩
  | .local _ .vmem, ⟨0, _⟩ => ⟨S256x5120, .f32⟩
  | .local _ .vmem, ⟨1, _⟩ => ⟨S256x5120, .f32⟩
  | .local _ .vmem, ⟨2, _⟩ => ⟨S5120x1920, .bf16⟩
  | .local _ .vmem, ⟨3, _⟩ => ⟨S256x1920, .f32⟩
  | .local _ .vmem, ⟨4, _⟩ => ⟨S256x1920, .f32⟩
  | _, _ => ⟨S16384x80x8x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5120 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5120x1920 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1920 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S16384x80x8x8_S16384x5120 : S16384x80x8x8.ShapeCasts S16384x5120
  pads_S5120x1858_S5120x1920_000_0620 : S5120x1858.Pads (![0, 0] : Fin 2 → Nat) ![0, 62] ![0, 0] S5120x1920
  h_S_ : 0 < S_.numel
  bitsLt_bf16_f32 : FTy.bits .bf16 < FTy.bits .f32
  inb_S256x5120_S256x5120_0_0 : ∀ a, (![0, 0] : Fin 2 → Nat) a + S256x5120.size a ≤ S256x5120.size a
  h_S256x5120 : 0 < S256x5120.numel
  shapeCasts_S256x5120_S256x5120 : S256x5120.ShapeCasts S256x5120
  inb_S5120x1920_S5120x1920_0_0 : ∀ a, (![0, 0] : Fin 2 → Nat) a + S5120x1920.size a ≤ S5120x1920.size a
  h_S5120x1920 : 0 < S5120x1920.numel
  shapeCasts_S5120x1920_S5120x1920 : S5120x1920.ShapeCasts S5120x1920
  inb_S256x1920_S256x1920_0_0 : ∀ a, (![0, 0] : Fin 2 → Nat) a + S256x1920.size a ≤ S256x1920.size a
  h_S256x1920 : 0 < S256x1920.numel
  slices_S16384x1920_S16384x1858_0_0 : S16384x1920.Slices ![0, 0] S16384x1858
  dot_S256x5120_S5120x1920_S256x1920_1_0_0_1_n_n_wf : DotDims.WF S256x5120 S5120x1920 S256x1920 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x5120.size a ≤ S16384x5120.size a
  hwx0_0 : ∀ i : grid0.Coords, EltTy.bits .f32 = 32 ∨ (Rect.block (s := S16384x5120) S256x5120.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S5120x1920.size a ≤ S5120x1920.size a
  hwx0_1 : ∀ i : grid0.Coords, EltTy.bits .bf16 = 32 ∨ (Rect.block (s := S5120x1920) S5120x1920.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1920.size a ≤ S16384x1920.size a
  hwx0_2 : ∀ i : grid0.Coords, EltTy.bits .f32 = 32 ∨ (Rect.block (s := S16384x1920) S256x1920.size (cc0_transform_2 i) (hinb0_2 i)).WholeWords (EltTy.packing .f32)

variable [Facts₀]

def dot_S256x5120_S5120x1920_S256x1920_1_0_0_1_n_n : DotDims S256x5120 S5120x1920 S256x1920 where
  lhsContracting := [1]
  rhsContracting := [0]
  lhsNonContracting := [0]
  rhsNonContracting := [1]
  lhsBatch := []
  rhsBatch := []
  wf := dot_S256x5120_S5120x1920_S256x1920_1_0_0_1_n_n_wf

abbrev win0_0 : Pipeline.Window sig grid0 :=
  Pipeline.Window.ofSpec (Memref.whole main_v0) S256x5120.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S5120x1920.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S256x1920.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x80x8x8 : Shape := ⟨4, ![16384, 80, 8, 8]⟩
abbrev S5120x1858 : Shape := ⟨2, ![5120, 1858]⟩
abbrev S16384x5120 : Shape := ⟨2, ![16384, 5120]⟩
abbrev S16384x1858 : Shape := ⟨2, ![16384, 1858]⟩

abbrev nBuf : Space → Nat
  | .hbm => 4
  | .vmem => 0
  | .smem => 0
  | _ => 0

abbrev bufTy : (tb : Table) → Fin (tcTables nBuf tb) → BufTy
  | .hbm, ⟨0, _⟩ => ⟨S16384x80x8x8, .f32⟩
  | .hbm, ⟨1, _⟩ => ⟨S5120x1858, .f32⟩
  | .hbm, ⟨2, _⟩ => ⟨S16384x5120, .f32⟩
  | .hbm, ⟨3, _⟩ => ⟨S16384x1858, .f32⟩
  | _, _ => ⟨S16384x80x8x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  shapeCasts_S16384x80x8x8_S16384x5120 : S16384x80x8x8.ShapeCasts S16384x5120
  dot_S16384x5120_S5120x1858_S16384x1858_1_0_0_1_n_n_wf : DotDims.WF S16384x5120 S5120x1858 S16384x1858 [1] [0] [0] [1] [] []

variable [Facts₀]

def dot_S16384x5120_S5120x1858_S16384x1858_1_0_0_1_n_n : DotDims S16384x5120 S5120x1858 S16384x1858 where
  lhsContracting := [1]
  rhsContracting := [0]
  lhsNonContracting := [0]
  rhsNonContracting := [1]
  lhsBatch := []
  rhsBatch := []
  wf := dot_S16384x5120_S5120x1858_S16384x1858_1_0_0_1_n_n_wf

class Facts : Prop extends Facts₀ where

variable [Facts]
-- ==== Proof.Spec.lean ====
/-
  The function both programs compute.

  A batch of 16384 boards, each 80 planes of 8 × 8 squares, is read as a matrix with one row per board and
  5120 = 80 · 8 · 8 columns (the planes flattened in row-major order), and multiplied by a fixed 5120 × 1858 map: entry
  `(b, n)` of the result is the sum over the 5120 flattened positions `k` of `x (b, k) · w (k, n)`. Over the extended
  reals the sum is the plain sum in the order of `k`; no law of arithmetic beyond the definition is used, so nothing has
  to be finite.

  The kernel multiplies by the map widened with 62 columns of zeros (1920 columns, a whole number of 128-lane tiles)
  and cuts the extra columns off afterwards; `productWide` is that wider product, and `productWide_narrow` says its first
  1858 columns are the product with the map itself whenever the wide matrix agrees with the map on those columns.
-/
import Idealize.ShloMosaic.PureOps.Ideal
import Idealize.ShloMosaic.Lib.ValueIdx

noncomputable section

open scoped BigOperators

namespace Cert.PolicyMap

open Idealize.ShloMosaic Idealize.ShloMosaic.ValueIdx

/-- Rows of flattened boards times the 5120 × 1858 map: entry `(b, n)` is `∑ k, x (b, k) · w (k, n)`. -/
def product (x : (⟨2, ![16384, 5120]⟩ : Shape).Idx → EReal) (w : (⟨2, ![5120, 1858]⟩ : Shape).Idx → EReal) :
    (⟨2, ![16384, 1858]⟩ : Shape).Idx → EReal :=
  fun i => ∑ k : Fin 5120, x (ix2 (n0 := 16384) (n1 := 5120) (i 0) k) * w (ix2 (n0 := 5120) (n1 := 1858) k (i 1))

/-- The same rows times a 5120 × 1920 matrix (the map with 62 more columns). -/
def productWide (x : (⟨2, ![16384, 5120]⟩ : Shape).Idx → EReal) (w : (⟨2, ![5120, 1920]⟩ : Shape).Idx → EReal) :
    (⟨2, ![16384, 1920]⟩ : Shape).Idx → EReal :=
  fun i => ∑ k : Fin 5120, x (ix2 (n0 := 16384) (n1 := 5120) (i 0) k) * w (ix2 (n0 := 5120) (n1 := 1920) k (i 1))

/-- Column `n < 1858` of the wide product only reads column `n` of the wide matrix: if that matrix agrees with the map
    on its first 1858 columns, the wide product agrees with the product there. -/
theorem productWide_narrow (x : (⟨2, ![16384, 5120]⟩ : Shape).Idx → EReal) (w : (⟨2, ![5120, 1858]⟩ : Shape).Idx → EReal)
    (w' : (⟨2, ![5120, 1920]⟩ : Shape).Idx → EReal)
    (hw : ∀ (k : Fin 5120) (n : Fin 1858), w' (ix2 (n0 := 5120) (n1 := 1920) k ⟨n.val, by omega⟩) = w (ix2 (n0 := 5120) (n1 := 1858) k n))
    (b : Fin 16384) (n : Fin 1858) :
    productWide x w' (ix2 (n0 := 16384) (n1 := 1920) b ⟨n.val, by omega⟩) = product x w (ix2 (n0 := 16384) (n1 := 1858) b n) := by
  unfold productWide product
  exact Finset.sum_congr rfl fun k _ => congrArg (x (ix2 (n0 := 16384) (n1 := 5120) b k) * ·) (hw k n)

end Cert.PolicyMap

end
-- ==== Proof.RefProduct.lean ====
/-
  The reference's result is the product.

  The reference flattens the planes of each board (a reshape of [16384, 80, 8, 8] to [16384, 5120]) and contracts the
  5120 flattened positions against the rows of the map with one `dot_general`. Read at an entry `(b, n)` over the
  extended reals, the `dot_general` is the sum over `k` of the left operand at `(b, k)` times the right operand at
  `(k, n)` — the generated reading of the reference, whose two operand indices are named here by their coordinates —
  which is `product` of the flattened boards and the map, term for term.
-/
import proofs.«127108_j42683384987871_1_alg».proof.Proof.Gen.ReferenceIdeal.Read
import proofs.«127108_j42683384987871_1_alg».proof.Proof.Spec

noncomputable section

open scoped BigOperators

namespace Cert.PolicyMap.Reference

open Cert.ReferenceIdeal Cert.ReferenceIdeal.Gen Cert.ReferenceIdeal.Read Idealize.ShloMosaic Idealize.ShloMosaic.ValueIdx

/-- The left operand's index at output entry `i` and position `k` is `(i 0, k)`. -/
theorem left_index (i : S16384x1858.Idx) (k : Fin 5120) :
    lidx_main_v1 i k = ix2 (n0 := 16384) (n1 := 5120) (i 0) k :=
  funext fun a => Fin.ext (by match a with | ⟨0, _⟩ => rfl | ⟨1, _⟩ => rfl)

/-- The right operand's index there is `(k, i 1)`. -/
theorem right_index (i : S16384x1858.Idx) (k : Fin 5120) :
    ridx_main_v1 i k = ix2 (n0 := 5120) (n1 := 1858) k (i 1) :=
  funext fun a => Fin.ext (by match a with | ⟨0, _⟩ => rfl | ⟨1, _⟩ => rfl)

/-- The reference's result, as a function of its two arguments, is the product of the flattened boards and the map. -/
theorem result_eq (x0 : (⟨S16384x80x8x8, .f32⟩ : BufTy).Contents (Elt Ideal)) (x1 : (⟨S5120x1858, .f32⟩ : BufTy).Contents (Elt Ideal)) :
    val_main_v1 (F := Ideal) x0 x1 = Cert.PolicyMap.product (val_main_v0 (F := Ideal) x0) x1 := by
  funext i
  rw [val_main_v1_apply]
  unfold Cert.PolicyMap.product
  exact Finset.sum_congr rfl fun k _ => by rw [left_index, right_index]

end Cert.PolicyMap.Reference

end
-- ==== Proof.Body.lean ====
/-
  What the kernel's body computes at one grid point, entry by entry.

  At a grid point the body holds a block of 256 flattened boards (256 × 5120) and the whole widened map
  (5120 × 1920). It narrows the boards' format (the identity on extended reals), multiplies the two on the matrix unit
  into an accumulator of zeros, and stores the 256 × 1920 result. Entry `(p, q)` of what it stores is therefore
  `0 + ∑ k, x (p, k) · w (k, q)`, that is the sum itself: the matrix unit's product over the extended reals is the sum
  over the one contracted axis, re-indexed from the contraction's own index type to `Fin 5120`, and the two shape
  casts in the body are casts of a shape to itself.
-/
import proofs.«127108_j42683384987871_1_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.PolicyMap.Body

open Cert.KernelIdeal Cert.KernelIdeal.Gen Idealize.ShloMosaic Idealize.ShloMosaic.ValueIdx

/-- Coordinate 0 of the left operand's index at output entry `j` is `j`'s row: axis 0 of the left operand is its one
    free axis. -/
theorem lhs_row (j : S256x1920.Idx) (q : dot_S256x5120_S5120x1920_S256x1920_1_0_0_1_n_n.contr.Idx) :
    (dot_S256x5120_S5120x1920_S256x1920_1_0_0_1_n_n.lhsIdx j q 0).val = (j 0).val := by
  unfold DotDims.lhsIdx
  rw [dif_neg (show ¬(0 : Fin S256x5120.rank) ∈ dot_S256x5120_S5120x1920_S256x1920_1_0_0_1_n_n.lhsBatch by decide),
    dif_pos (show (0 : Fin S256x5120.rank) ∈ dot_S256x5120_S5120x1920_S256x1920_1_0_0_1_n_n.lhsNonContracting by decide)]
  rfl

/-- Coordinate 1 of the right operand's index there is `j`'s column: axis 1 of the right operand is its one free axis. -/
theorem rhs_col (j : S256x1920.Idx) (q : dot_S256x5120_S5120x1920_S256x1920_1_0_0_1_n_n.contr.Idx) :
    (dot_S256x5120_S5120x1920_S256x1920_1_0_0_1_n_n.rhsIdx j q 1).val = (j 1).val := by
  unfold DotDims.rhsIdx
  rw [dif_neg (show ¬(1 : Fin S5120x1920.rank) ∈ dot_S256x5120_S5120x1920_S256x1920_1_0_0_1_n_n.rhsBatch by decide),
    dif_pos (show (1 : Fin S5120x1920.rank) ∈ dot_S256x5120_S5120x1920_S256x1920_1_0_0_1_n_n.rhsNonContracting by decide)]
  rfl

/-- Entry `(p, q)` of what the body stores, from the block of boards `x` and the widened map `w` it loaded:
    `∑ k, x (p, k) · w (k, q)`. -/
theorem stored_apply (x : FVec Ideal S256x5120 .f32) (w : FVec Ideal S5120x1920 .bf16) (p : Fin 256) (q : Fin 1920) :
    k0_pay1 (F := Ideal) x w (ix2 (n0 := 256) (n1 := 1920) p q)
      = ∑ k : Fin 5120, x (ix2 (n0 := 256) (n1 := 5120) p k) * w (ix2 (n0 := 5120) (n1 := 1920) k q) := by
  unfold k0_pay1
  refine (Ideal.matmul_constant_zero_apply dot_S256x5120_S5120x1920_S256x1920_1_0_0_1_n_n none _ _ _).trans ?_
  rw [← Equiv.sum_comp (contrEquiv1 dot_S256x5120_S5120x1920_S256x1920_1_0_0_1_n_n 5120 rfl rfl).symm]
  refine Finset.sum_congr rfl fun k _ => ?_
  have hk := contrEquiv1_symm_val dot_S256x5120_S5120x1920_S256x1920_1_0_0_1_n_n 5120 rfl rfl k
  have el : dot_S256x5120_S5120x1920_S256x1920_1_0_0_1_n_n.lhsIdx (ix2 (n0 := 256) (n1 := 1920) p q)
      ((contrEquiv1 dot_S256x5120_S5120x1920_S256x1920_1_0_0_1_n_n 5120 rfl rfl).symm k) = ix2 (n0 := 256) (n1 := 5120) p k :=
    funext fun a => Fin.ext (by
      match a with
      | ⟨0, _⟩ => exact lhs_row _ _
      | ⟨1, _⟩ => exact (dot_S256x5120_S5120x1920_S256x1920_1_0_0_1_n_n.lhsIdx_val_of_single rfl _ _).trans hk)
  have er : dot_S256x5120_S5120x1920_S256x1920_1_0_0_1_n_n.rhsIdx (ix2 (n0 := 256) (n1 := 1920) p q)
      ((contrEquiv1 dot_S256x5120_S5120x1920_S256x1920_1_0_0_1_n_n 5120 rfl rfl).symm k) = ix2 (n0 := 5120) (n1 := 1920) k q :=
    funext fun a => Fin.ext (by
      match a with
      | ⟨0, _⟩ => exact (dot_S256x5120_S5120x1920_S256x1920_1_0_0_1_n_n.rhsIdx_val_of_single rfl _ _).trans hk
      | ⟨1, _⟩ => exact rhs_col _ _)
  rw [el, er, shapeCast_self, shapeCast_self]
  rfl

end Cert.PolicyMap.Body

end
-- ==== Proof.Blocks.lean ====
/-
  From what each grid point writes back to the whole array the region leaves.

  The grid has 64 points. Point `t` reads rows `256 t … 256 t + 255` of the flattened boards (window 0), the whole
  widened map (window 1, the same block at every point), and writes rows `256 t … 256 t + 255` of the 16384 × 1920
  result (window 2). By the body's entry-by-entry reading, what point `t` writes back is exactly block `t` of ONE
  function of the two arrays the region finds — the wide product of the flattened boards and the widened map —, since
  entry `(p, q)` of the block only reads row `256 t + p` of the boards and column `q` of the map. The 64 row blocks
  cover every row, so after the run the result array is that wide product.
-/
import proofs.«127108_j42683384987871_1_alg».proof.Proof.Gen.KernelIdeal.Frame
import proofs.«127108_j42683384987871_1_alg».proof.Proof.Spec
import proofs.«127108_j42683384987871_1_alg».proof.Proof.Body
import Idealize.ShloMosaic.Lib.Pipeline.Value

noncomputable section

open scoped BigOperators

namespace Cert.PolicyMap.Blocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- The two zero offsets of a whole-buffer access, as the constant function. -/
theorem zero_offsets : (![0, 0] : Fin 2 → Nat) = fun _ => 0 := funext fun a => by fin_cases a <;> rfl

/-- One grid point, stated over plain arrays and blocks. If the block of boards `x` is rows `256 r …` of `X` and the
    block `w` is all of `Wd`, then entry `j` of what the body stores is the wide product of `X` and `Wd` at the array
    entry `i` that sits at row `256 r + j 0` and column `j 1`. -/
theorem point_eq (X : (⟨2, ![16384, 5120]⟩ : Shape).Idx → EReal) (Wd : (⟨2, ![5120, 1920]⟩ : Shape).Idx → EReal)
    (x : FVec Ideal S256x5120 .f32) (w : FVec Ideal S5120x1920 .bf16) (r : Nat)
    (hx : ∀ (p : Fin 256) (k : Fin 5120) (i : (⟨2, ![16384, 5120]⟩ : Shape).Idx), (i 0).val = r * 256 + p.val → (i 1).val = k.val →
      x (ix2 (n0 := 256) (n1 := 5120) p k) = X i)
    (hw : ∀ (k : Fin 5120) (q : Fin 1920), w (ix2 (n0 := 5120) (n1 := 1920) k q) = Wd (ix2 (n0 := 5120) (n1 := 1920) k q))
    (j : S256x1920.Idx) (i : (⟨2, ![16384, 1920]⟩ : Shape).Idx) (hi0 : (i 0).val = r * 256 + (j 0).val) (hi1 : (i 1).val = (j 1).val) :
    k0_pay1 (F := Ideal) x w j = Cert.PolicyMap.productWide X Wd i := by
  obtain ⟨p, q, rfl⟩ : ∃ (p : Fin 256) (q : Fin 1920), j = ix2 (n0 := 256) (n1 := 1920) p q := ⟨j 0, j 1, eq_ix2 j⟩
  rw [Cert.PolicyMap.Body.stored_apply]
  unfold Cert.PolicyMap.productWide
  refine Finset.sum_congr rfl fun k _ => ?_
  rw [hx p k (ix2 (n0 := 16384) (n1 := 5120) (i 0) k) hi0 rfl, hw k q]
  exact congrArg (X (ix2 (n0 := 16384) (n1 := 5120) (i 0) k) * Wd ·) (funext fun a => Fin.ext (by
    match a with
    | ⟨0, _⟩ => rfl
    | ⟨1, _⟩ => exact hi1.symm))

/-- The printed index maps over the 64 grid points: the boards' window moves down with the result's window, both stay
    in column block 0, the map's window never moves, and the result's row block at point `t` is at most 63. -/
theorem index_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 63 :=
  (by decide +kernel : ∀ t : Fin grid0.N, _)

/-- Every one of the 64 row blocks is some point's. -/
theorem index_onto : ∀ q0 : Fin 64, ∃ t : Fin cfg0.N, win0_2.index t = ![q0.val, 0] :=
  (by decide +kernel : ∀ q0 : Fin 64, ∃ t : Fin grid0.N, win0_2.index t = ![q0.val, 0])

/-- The block of boards at point `t`, entry `(p, k)`, is the flattened boards at row `256 · (row block of t) + p`,
    column `k`. -/
theorem boards_block (c : Dev nD) (t : Fin cfg0.N) (p : Fin 256) (k : Fin 5120) (i : (⟨2, ![16384, 5120]⟩ : Shape).Idx)
    (hi0 : (i 0).val = win0_2.index t (0 : Fin 2) * 256 + p.val) (hi1 : (i 1).val = k.val) :
    iblk m c 0 t (ix2 (n0 := 256) (n1 := 5120) p k) = V m c main_v0 i := by
  obtain ⟨e0, e1, e2, e3, e4, e5⟩ := index_facts t
  show V m c main_v0 (((cfg0.win 0).blk t).view.emb (ix2 (n0 := 256) (n1 := 5120) p k)) = V m c main_v0 i
  refine congrArg (V m c main_v0) (funext fun a => Fin.ext ?_)
  match a with
  | ⟨0, _⟩ => show win0_0.index t (0 : Fin 2) * 256 + 1 * p.val = (i 0).val; omega
  | ⟨1, _⟩ => show win0_0.index t (1 : Fin 2) * 5120 + 1 * k.val = (i 1).val; omega

/-- The block of the widened map at any point is the whole widened map. -/
theorem map_block (c : Dev nD) (t : Fin cfg0.N) (k : Fin 5120) (q : Fin 1920) :
    iblk m c 1 t (ix2 (n0 := 5120) (n1 := 1920) k q) = V m c main_v2 (ix2 (n0 := 5120) (n1 := 1920) k q) := by
  obtain ⟨e0, e1, e2, e3, e4, e5⟩ := index_facts t
  show V m c main_v2 (((cfg0.win 1).blk t).view.emb (ix2 (n0 := 5120) (n1 := 1920) k q)) = V m c main_v2 _
  refine congrArg (V m c main_v2) (funext fun a => Fin.ext ?_)
  match a with
  | ⟨0, _⟩ => show win0_1.index t (0 : Fin 2) * 5120 + 1 * k.val = k.val; omega
  | ⟨1, _⟩ => show win0_1.index t (1 : Fin 2) * 1920 + 1 * q.val = q.val; omega

/-- What point `t` writes back is block `t` of the wide product of the two arrays the region finds. -/
theorem flushed_eq (c : Dev nD) (t : Fin cfg0.N) :
    (dats m 0 c).flushed 2 t
      = ((cfg0.win 2).blk t).view.read (Elt Ideal) (Cert.PolicyMap.productWide (V m c main_v0) (V m c main_v2)) := by
  show (cfg0.win 2).cut (grid0.coords t) ((dats m 0 c).after 2 t) = _
  rw [after0_2]
  unfold out0_2
  rw [View.canon_unit_zero zero_offsets]
  simp only [View.ld_unit_zero (S := S256x5120) zero_offsets, View.ld_unit_zero (S := S5120x1920) zero_offsets]
  funext j
  show k0_pay1 (F := Ideal) (iblk m c 0 t) (iblk m c 1 t) j
    = Cert.PolicyMap.productWide (V m c main_v0) (V m c main_v2) (((cfg0.win 2).blk t).view.emb j)
  obtain ⟨e0, e1, e2, e3, e4, e5⟩ := index_facts t
  refine point_eq (V m c main_v0) (V m c main_v2) (iblk m c 0 t) (iblk m c 1 t) (win0_2.index t (0 : Fin 2))
    (fun p k i h0 h1 => boards_block m c t p k i h0 h1) (fun k q => map_block m c t k q) j
    (((cfg0.win 2).blk t).view.emb j) ?_ ?_
  · show win0_2.index t (0 : Fin 2) * 256 + 1 * (j 0).val = win0_2.index t (0 : Fin 2) * 256 + (j 0).val; omega
  · show win0_2.index t (1 : Fin 2) * 1920 + 1 * (j 1).val = (j 1).val; omega

/-- An entry of the result array is in point `t`'s block iff each coordinate is in the block's range on its axis. -/
theorem mem_block (t : Fin cfg0.N) (i : S16384x1920.Idx) :
    i ∈ ((cfg0.win 2).blk t).view.set
      ↔ ∀ a : Fin 2, win0_2.index t a * S256x1920.size a ≤ (i a).val ∧ (i a).val < win0_2.index t a * S256x1920.size a + S256x1920.size a := by
  show i ∈ ((View.whole main_v3).slice (win0_2.rect t)).set ↔ _
  rw [View.set_slice_whole, Rect.mem_set_unit]
  exact Iff.rfl

/-- Every entry of the result array lies in the block of the point whose row block is its row divided by 256. -/
theorem covered (i : S16384x1920.Idx) :
    ∃ t : Fin cfg0.N, (cfg0.win 2).flush t = true ∧ i ∈ ((cfg0.win 2).blk t).view.set := by
  have hi0 : (i 0).val < 16384 := (i 0).isLt
  have hi1 : (i 1).val < 1920 := (i 1).isLt
  obtain ⟨t, ht⟩ := index_onto ⟨(i 0).val / 256, by omega⟩
  have q0 : win0_2.index t (0 : Fin 2) = (i 0).val / 256 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 256 ≤ (i 0).val ∧ (i 0).val < win0_2.index t (0 : Fin 2) * 256 + 256; omega
  | ⟨1, _⟩ => show win0_2.index t (1 : Fin 2) * 1920 ≤ (i 1).val ∧ (i 1).val < win0_2.index t (1 : Fin 2) * 1920 + 1920; omega

/-- After the region, the result array is the wide product of the flattened boards and the widened map as the region
    found them. -/
theorem array_eq (c : Dev nD) :
    (dats m 0 c).arrAt 2 cfg0.N = Cert.PolicyMap.productWide (V m c main_v0) (V m c main_v2) :=
  (dats m 0 c).arrAt_eq_of_cover 2 (Cert.PolicyMap.productWide (V m c main_v0) (V m c main_v2))
    (fun t _ => flushed_eq m c t) covered

end Cert.PolicyMap.Blocks

end
-- ==== Proof.Entry.lean ====
/-
  The two arrays the region reads, as the host operations before it leave them.

  Before the region @main flattens the boards (a reshape of the first argument to 16384 × 5120) and widens the map:
  it pads the second argument on the right with 62 columns of the value `0` (an integer zero converted to a float) and
  narrows the format (the identity on extended reals). So the region finds the reshape of the boards, and a 5120 × 1920
  matrix whose entry `(k, n)` for `n < 1858` is the map's entry `(k, n)`: such an entry is inside the padded operand on
  both axes. The padded columns are never looked at: the result's columns from 1858 on are cut off after the region.
-/
import proofs.«127108_j42683384987871_1_alg».proof.Proof.Gen.KernelIdeal.Frame
import Idealize.ShloMosaic.Lib.StableHlo.Run
import Idealize.ShloMosaic.Lib.Pipeline.Value
import Idealize.ShloMosaic.Lib.ValueIdx
import Idealize.ShloMosaic.Lib.KernelVsHost
import Idealize.ShloMosaic.PureOps.Ideal

noncomputable section

namespace Cert.PolicyMap.Entry

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The region finds the boards flattened: the reshape of the first argument as launched. -/
theorem boards_eq (c : Dev nD) :
    (V m c main_v0 : S16384x5120.Idx → EReal)
      = shapeCast S16384x5120 (m ((c : Thread nD τ).loc main_arg0)) shapeCasts_S16384x80x8x8_S16384x5120 := by
  dsimp only [Gen.V, Gen.V0]
  simp only [Gen.hostOps0, Gen.hostOps0_1, Gen.hostOps0_2, List.flatten_cons, List.flatten_nil, List.append_nil,
    List.cons_append, List.nil_append]
  after_results
  rfl

/-- The region finds the map widened: the second argument as launched, padded on the right with 62 columns of the
    converted integer zero, in the narrower format. -/
theorem map_eq (c : Dev nD) :
    (V m c main_v2 : S5120x1920.Idx → EReal)
      = truncf .bf16 (pad S5120x1920 ![0, 0] ![0, 62] ![0, 0] (m ((c : Thread nD τ).loc main_arg1))
          (sitofp .f32 (constantI S_ 32 0#32) : FVec Ideal S_ .f32) pads_S5120x1858_S5120x1920_000_0620 h_S_) bitsLt_bf16_f32 := by
  dsimp only [Gen.V, Gen.V0]
  simp only [Gen.hostOps0, Gen.hostOps0_1, Gen.hostOps0_2, List.flatten_cons, List.flatten_nil, List.append_nil,
    List.cons_append, List.nil_append]
  after_results
  rfl

/-- Entry `(k, n)` of the widened map, for a column `n < 1858`, is the map's entry `(k, n)`. -/
theorem map_apply (c : Dev nD) (k : Fin 5120) (n : Fin 1858) :
    (V m c main_v2 : S5120x1920.Idx → EReal) (ix2 (n0 := 5120) (n1 := 1920) k ⟨n.val, by omega⟩)
      = m ((c : Thread nD τ).loc main_arg1) (ix2 (n0 := 5120) (n1 := 1858) k n) := by
  rw [map_eq]
  show pad S5120x1920 ![0, 0] ![0, 62] ![0, 0] (m ((c : Thread nD τ).loc main_arg1))
      (sitofp .f32 (constantI S_ 32 0#32) : FVec Ideal S_ .f32) pads_S5120x1858_S5120x1920_000_0620 h_S_
      (ix2 (n0 := 5120) (n1 := 1920) k ⟨n.val, by omega⟩) = _
  exact pad_apply_of_inside ![0, 0] ![0, 62] ![0, 0] _ _ pads_S5120x1858_S5120x1920_000_0620 h_S_
    (ix2 (n0 := 5120) (n1 := 1920) k ⟨n.val, by omega⟩) (ix2 (n0 := 5120) (n1 := 1858) k n) (fun a => by
      match a with
      | ⟨0, _⟩ => show k.val = 0 + k.val * (0 + 1); omega
      | ⟨1, _⟩ => show n.val = 0 + n.val * (0 + 1); omega)

end Cert.PolicyMap.Entry

end
-- ==== Proof.Result.lean ====
/-
  The kernel's result, and its run.

  After the region @main keeps the first 1858 columns of the 16384 × 1920 array the region wrote. That array is the
  wide product of the flattened boards and the widened map; entry `(b, n)` of the cut reads entry `(b, n)` of it, which
  only involves column `n < 1858` of the widened map, where the widened map is the map. So the kernel's result is the
  product of the flattened boards and the map — the same function the reference computes.
-/
import proofs.«127108_j42683384987871_1_alg».proof.Proof.Blocks
import proofs.«127108_j42683384987871_1_alg».proof.Proof.Entry
import Idealize.ShloMosaic.Lib.StableHlo.Run

noncomputable section

namespace Cert.PolicyMap.Result

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ) (ρ : Dev nD → PrngReg)

/-- The region's result array, as the host operations after the region see it, is the wide product. -/
theorem wide_array (c : Dev nD) :
    Pipeline.withArrays (cfgs 0).spec c (V0 m c) (fun w => (dats m 0 c).arrAt w (cfgs 0).N) (Proc.devRef .tc main_v3)
      = Cert.PolicyMap.productWide (V m c main_v0) (V m c main_v2) :=
  (Pipeline.withArrays_arr spec0 launch0.win.arr_inj c _ _ 2).trans (Cert.PolicyMap.Blocks.array_eq m c)

/-- The kernel's result — the first 1858 columns of the region's array — is the product of the flattened boards and
    the map, both as launched. -/
theorem result_eq (c : Dev nD) :
    (Pipeline.afterTail₀ cfgs (dats m) 0 (V0 m) [hostOps1] c main_v4 : S16384x1858.Idx → EReal)
      = Cert.PolicyMap.product
          (shapeCast S16384x5120 (m ((c : Thread nD τ).loc main_arg0)) shapeCasts_S16384x80x8x8_S16384x5120)
          (m ((c : Thread nD τ).loc main_arg1)) := by
  unfold Pipeline.afterTail₀
  show StableHlo.after hostOps1 _ (Proc.devRef .tc main_v4) = _
  after_results
  refine (congrArg (fun A => extractStridedSlice S16384x1858 ![0, 0] A slices_S16384x1920_S16384x1858_0_0)
    (wide_array m c)).trans ?_
  funext i
  obtain ⟨b, n, rfl⟩ : ∃ (b : Fin 16384) (n : Fin 1858), i = ix2 (n0 := 16384) (n1 := 1858) b n := ⟨i 0, i 1, eq_ix2 i⟩
  refine (extractStridedSlice_apply ![0, 0] _ slices_S16384x1920_S16384x1858_0_0 (ix2 (n0 := 16384) (n1 := 1858) b n)
    (ix2 (n0 := 16384) (n1 := 1920) b ⟨n.val, by omega⟩) (fun a => by
      match a with
      | ⟨0, _⟩ => show b.val = 0 + b.val; omega
      | ⟨1, _⟩ => show n.val = 0 + n.val; omega)).trans ?_
  refine (Cert.PolicyMap.productWide_narrow (V m c main_v0) (m ((c : Thread nD τ).loc main_arg1)) (V m c main_v2)
    (Cert.PolicyMap.Entry.map_apply m c) b n).trans ?_
  rw [Cert.PolicyMap.Entry.boards_eq m c]

/-- Every weakly fair execution of the idealized kernel's @main terminates with the result at the product of the
    flattened boards and the map, and the two arguments unchanged. -/
theorem run : θ_run defs (onTc (τ := τ) (main (F := Ideal))) ⟨m, fun _ => 0, ρ⟩ fun r => ∀ c : Dev nD,
      r.2.mem ((c : Thread nD τ).loc main_v4)
        = Cert.PolicyMap.product
            (shapeCast S16384x5120 (m ((c : Thread nD τ).loc main_arg0)) shapeCasts_S16384x80x8x8_S16384x5120)
            (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
      ⟨((h c).2 main_v4 (Pipeline.mem_restRefs_of main_v4 (by decide) (by decide))).trans (result_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.PolicyMap.Result

end
-- ==== Proof.lean ====
/-
  The kernel equals its reference over the extended reals.

  The reference flattens each of 16384 boards (80 planes of 8 × 8 squares) to a row of 5120 numbers and multiplies the
  16384 × 5120 matrix of rows by a 5120 × 1858 map: result entry `(b, n)` is `∑ k, x (b, k) · w (k, n)`
  (`Cert.PolicyMap.product`, Proof/Spec.lean; the reference read as that sum is Proof/RefProduct.lean).

  The kernel flattens the boards the same way, widens the map with 62 columns of zeros to 1920 columns, and runs a
  grid of 64 points; point `t` multiplies rows `256 t … 256 t + 255` of the boards by the whole widened map on the
  matrix unit, starting from an accumulator of zeros, and writes rows `256 t … 256 t + 255` of a 16384 × 1920 array.
  Afterwards it keeps the first 1858 columns. Entry by entry: the body stores `∑ k, x (p, k) · w (k, q)`
  (Proof/Body.lean); the 64 row blocks are the blocks of one wide product and cover the array (Proof/Blocks.lean); the
  arrays the region reads are the reshape of the boards and the padded map, which is the map on its first 1858
  columns (Proof/Entry.lean); so the kept columns are the product with the map itself (Proof/Result.lean). The changes
  of float format are the identity on extended reals.

  Both sides are the same sum in the same order, so no law of arithmetic is needed and the precondition (every input
  finite) is never opened. The three frame claims are the generated frame of each kernel program and the reference's
  generated run with its result dropped; the idealization rewrote nothing, so its claim is `True`.
-/
import proofs.«127108_j42683384987871_1_alg».proof.Defs
import proofs.«127108_j42683384987871_1_alg».proof.Proof.Gen.Kernel
import proofs.«127108_j42683384987871_1_alg».proof.Proof.Gen.Kernel.Skeleton
import proofs.«127108_j42683384987871_1_alg».proof.Proof.Gen.Kernel.Launch
import proofs.«127108_j42683384987871_1_alg».proof.Proof.Gen.Kernel.Points
import proofs.«127108_j42683384987871_1_alg».proof.Proof.Gen.Kernel.Frame
import proofs.«127108_j42683384987871_1_alg».proof.Proof.Gen.KernelIdeal
import proofs.«127108_j42683384987871_1_alg».proof.Proof.Gen.KernelIdeal.Skeleton
import proofs.«127108_j42683384987871_1_alg».proof.Proof.Gen.KernelIdeal.Launch
import proofs.«127108_j42683384987871_1_alg».proof.Proof.Gen.KernelIdeal.Points
import proofs.«127108_j42683384987871_1_alg».proof.Proof.Gen.KernelIdeal.Frame
import proofs.«127108_j42683384987871_1_alg».proof.Proof.Gen.ReferenceIdeal
import proofs.«127108_j42683384987871_1_alg».proof.Proof.Gen.ReferenceIdeal.Run
import proofs.«127108_j42683384987871_1_alg».proof.Proof.Gen.ReferenceIdeal.Read
import proofs.«127108_j42683384987871_1_alg».proof.Proof.Gen.Pre_finite_inputs
import proofs.«127108_j42683384987871_1_alg».proof.Proof.Spec
import proofs.«127108_j42683384987871_1_alg».proof.Proof.RefProduct
import proofs.«127108_j42683384987871_1_alg».proof.Proof.Result
import Idealize.ShloMosaic.Adequacy
import Idealize.ShloMosaic.Init

noncomputable section

namespace Cert.Proof

open Idealize.ShloMosaic Idealize.ShloMosaic.TcCoe Idealize.SL.Sem

/-- The word-level kernel runs and leaves its arguments unchanged: its generated frame. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation: nothing to preserve. -/
theorem preserves : Cert.preserves_Kernel_KernelIdeal := trivial

/-- From memories agreeing on the boards and the map, both programs end with the product of the flattened boards and
    the map: the kernel by its run (Proof/Result.lean), the reference by its generated run read as the same sum
    (Proof/RefProduct.lean); the reshape of the boards is one function on both sides. -/
theorem algebraic : Cert.algebraic_KernelIdeal_ReferenceIdeal := by
  intro m ρ m' ρ' _ hagree
  refine ⟨fun c => Cert.PolicyMap.product
      (shapeCast Cert.KernelIdeal.S16384x5120 (m ((c.tc : Thread Cert.KernelIdeal.nD Cert.KernelIdeal.τ).loc Cert.KernelIdeal.main_arg0))
        Cert.KernelIdeal.Gen.shapeCasts_S16384x80x8x8_S16384x5120)
      (m ((c.tc : Thread Cert.KernelIdeal.nD Cert.KernelIdeal.τ).loc Cert.KernelIdeal.main_arg1)),
    Cert.PolicyMap.Result.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v1_eq, Cert.PolicyMap.Reference.result_eq, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
